-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131328 : Shape := ⟨1, ![131328]⟩
abbrev S_ : Shape := ⟨0, ![]⟩

class Facts : Prop where
  bcast_S_S131328 : S_.BroadcastsInDim S131328 (![] : Fin 0 → Fin S131328.rank)
  reducesTo_S131328_S_d0 : S131328.ReducesTo [0] S_
  h_S_ : 0 < S_.numel

variable [Facts]

def fn {F : FTy → Type} [FloatOps F] (main_arg0 : FVec F S131328 .f32) (main_arg1 : FVec F S131328 .f32) : IVec S_ 1 :=
  let main_v0 : FVec F S131328 .f32 := Host.absf main_arg0
  let main_cst : FVec F S_ .f32 := constant S_ .f32 0x7F800000#32
  let main_v1 : FVec F S131328 .f32 := broadcastInDim S131328 ![] bcast_S_S131328 main_cst
  let main_v2 : IVec S131328 1 := cmpf .olt main_v0 main_v1
  let main_c : IVec S_ 1 := constantI S_ 1 1#1
  let main_v3 : IVec S_ 1 := (fun x v => Host.reduce IntOp.andi x v reducesTo_S131328_S_d0 h_S_) main_v2 main_c
  let main_v4 : FVec F S131328 .f32 := Host.absf main_arg1
  let main_cst_0 : FVec F S_ .f32 := constant S_ .f32 0x7F800000#32
  let main_v5 : FVec F S131328 .f32 := broadcastInDim S131328 ![] bcast_S_S131328 main_cst_0
  let main_v6 : IVec S131328 1 := cmpf .olt main_v4 main_v5
  let main_c_1 : IVec S_ 1 := constantI S_ 1 1#1
  let main_v7 : IVec S_ 1 := (fun x v => Host.reduce IntOp.andi x v reducesTo_S131328_S_d0 h_S_) main_v6 main_c_1
  let main_v8 : IVec S_ 1 := andi main_v3 main_v7
  main_v8
-- ==== Kernel.lean ====
abbrev S131328 : Shape := ⟨1, ![131328]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩

abbrev nBuf : Space → Nat
  | .hbm => 111
  | .vmem => 3
  | .smem => 0
  | _ => 0

abbrev bufTy : (tb : Table) → Fin (tcTables nBuf tb) → BufTy
  | .hbm, ⟨0, _⟩ => ⟨S131328, .f32⟩
  | .hbm, ⟨1, _⟩ => ⟨S131328, .f32⟩
  | .hbm, ⟨2, _⟩ => ⟨S512, .i32⟩
  | .hbm, ⟨3, _⟩ => ⟨S512x1, .i32⟩
  | .hbm, ⟨4, _⟩ => ⟨S512, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S_, .i32⟩
  | .hbm, ⟨18, _⟩ => ⟨S512x1, .i32⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S_, .i32⟩
  | .hbm, ⟨31, _⟩ => ⟨S512x1, .i32⟩
  | .hbm, ⟨32, _⟩ => ⟨S512x1, .i32⟩
  | .hbm, ⟨33, _⟩ => ⟨S512x1, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S512x512, .i32⟩
  | .hbm, ⟨50, _⟩ => ⟨S512x512x1, .i32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S512, .i32⟩
  | .hbm, ⟨57, _⟩ => ⟨S512x1, .i32⟩
  | .hbm, ⟨58, _⟩ => ⟨S512, .i32⟩
  | .hbm, ⟨59, _⟩ => ⟨S1x512, .i32⟩
  | .hbm, ⟨60, _⟩ => ⟨S512x512, .i32⟩
  | .hbm, ⟨61, _⟩ => ⟨S512x512, .i32⟩
  | .hbm, ⟨62, _⟩ => ⟨S512x512, .i1⟩
  | .hbm, ⟨63, _⟩ => ⟨S_, .i32⟩
  | .hbm, ⟨64, _⟩ => ⟨S512x1, .i32⟩
  | .hbm, ⟨65, _⟩ => ⟨S512x1, .i32⟩
  | .hbm, ⟨66, _⟩ => ⟨S_, .i32⟩
  | .hbm, ⟨67, _⟩ => ⟨S512x1, .i32⟩
  | .hbm, ⟨68, _⟩ => ⟨S512x1, .i32⟩
  | .hbm, ⟨69, _⟩ => ⟨S512x1, .i32⟩
  | .hbm, ⟨70, _⟩ => ⟨S_, .i32⟩
  | .hbm, ⟨71, _⟩ => ⟨S_, .i32⟩
  | .hbm, ⟨72, _⟩ => ⟨S512x1, .i32⟩
  | .hbm, ⟨73, _⟩ => ⟨S512x1, .i32⟩
  | .hbm, ⟨74, _⟩ => ⟨S512x1, .i32⟩
  | .hbm, ⟨75, _⟩ => ⟨S_, .i32⟩
  | .hbm, ⟨76, _⟩ => ⟨S512x1, .i32⟩
  | .hbm, ⟨77, _⟩ => ⟨S512x1, .i1⟩
  | .hbm, ⟨78, _⟩ => ⟨S512x1, .i32⟩
  | .hbm, ⟨79, _⟩ => ⟨S512x1, .i32⟩
  | .hbm, ⟨80, _⟩ => ⟨S_, .i32⟩
  | .hbm, ⟨81, _⟩ => ⟨S512x1, .i32⟩
  | .hbm, ⟨82, _⟩ => ⟨S512x1, .i1⟩
  | .hbm, ⟨83, _⟩ => ⟨S512x1, .i1⟩
  | .hbm, ⟨84, _⟩ => ⟨S_, .i32⟩
  | .hbm, ⟨85, _⟩ => ⟨S512x1, .i32⟩
  | .hbm, ⟨86, _⟩ => ⟨S512x1, .i32⟩
  | .hbm, ⟨87, _⟩ => ⟨S512x1, .i32⟩
  | .hbm, ⟨88, _⟩ => ⟨S512x512, .i32⟩
  | .hbm, ⟨89, _⟩ => ⟨S512x512, .i32⟩
  | .hbm, ⟨90, _⟩ => ⟨S512x512, .i32⟩
  | .hbm, ⟨91, _⟩ => ⟨S512x512, .i32⟩
  | .hbm, ⟨92, _⟩ => ⟨S512x512, .i32⟩
  | .hbm, ⟨93, _⟩ => ⟨S_, .i32⟩
  | .hbm, ⟨94, _⟩ => ⟨S_, .i32⟩
  | .hbm, ⟨95, _⟩ => ⟨S512x512, .i32⟩
  | .hbm, ⟨96, _⟩ => ⟨S512x512, .i32⟩
  | .hbm, ⟨97, _⟩ => ⟨S_, .i32⟩
  | .hbm, ⟨98, _⟩ => ⟨S512x512, .i32⟩
  | .hbm, ⟨99, _⟩ => ⟨S512x512, .i1⟩
  | .hbm, ⟨100, _⟩ => ⟨S_, .i32⟩
  | .hbm, ⟨101, _⟩ => ⟨S512x512, .i32⟩
  | .hbm, ⟨102, _⟩ => ⟨S512x512, .i32⟩
  | .hbm, ⟨103, _⟩ => ⟨S512x512, .i32⟩
  | .hbm, ⟨104, _⟩ => ⟨S512x512x1, .i32⟩
  | .hbm, ⟨105, _⟩ => ⟨S512x512, .f32⟩
  | .hbm, ⟨106, _⟩ => ⟨S_, .f32⟩
  | .hbm, ⟨107, _⟩ => ⟨S512x512, .f32⟩
  | .hbm, ⟨108, _⟩ => ⟨S512x512, .f32⟩
  | .hbm, ⟨109, _⟩ => ⟨S512x512, .bf16⟩
  | .hbm, ⟨110, _⟩ => ⟨S512x512, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | _, _ => ⟨S131328, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_c : Ref sig .tc := ⟨.hbm, 9, rfl⟩
abbrev main_call0_v7 : Ref sig .tc := ⟨.hbm, 10, rfl⟩
abbrev main_call0_v8 : Ref sig .tc := ⟨.hbm, 11, rfl⟩
abbrev main_call0_c_0 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_1 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_c : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_c_0 : Ref sig .tc := ⟨.hbm, 30, rfl⟩
abbrev main_call0_call0_v12 : Ref sig .tc := ⟨.hbm, 31, rfl⟩
abbrev main_call0_call0_v13 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_c_2 : Ref sig .tc := ⟨.hbm, 39, rfl⟩
abbrev main_call0_call1_v0 : Ref sig .tc := ⟨.hbm, 40, rfl⟩
abbrev main_call0_call1_v1 : Ref sig .tc := ⟨.hbm, 41, rfl⟩
abbrev main_call0_v18 : Ref sig .tc := ⟨.hbm, 42, rfl⟩
abbrev main_call0_c_3 : Ref sig .tc := ⟨.hbm, 43, rfl⟩
abbrev main_call0_v19 : Ref sig .tc := ⟨.hbm, 44, rfl⟩
abbrev main_call0_v20 : Ref sig .tc := ⟨.hbm, 45, rfl⟩
abbrev main_call0_c_4 : Ref sig .tc := ⟨.hbm, 46, rfl⟩
abbrev main_call0_v21 : Ref sig .tc := ⟨.hbm, 47, rfl⟩
abbrev main_call0_v22 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_cst : Ref sig .tc := ⟨.hbm, 52, rfl⟩
abbrev main_call0_call2_v0 : Ref sig .tc := ⟨.hbm, 53, rfl⟩
abbrev main_call0_v26 : Ref sig .tc := ⟨.hbm, 54, rfl⟩
abbrev main_call0_v27 : Ref sig .tc := ⟨.hbm, 55, rfl⟩
abbrev main_call0_v28 : Ref sig .tc := ⟨.hbm, 56, rfl⟩
abbrev main_call0_v29 : Ref sig .tc := ⟨.hbm, 57, rfl⟩
abbrev main_call0_v30 : Ref sig .tc := ⟨.hbm, 58, rfl⟩
abbrev main_call0_v31 : Ref sig .tc := ⟨.hbm, 59, rfl⟩
abbrev main_call0_v32 : Ref sig .tc := ⟨.hbm, 60, rfl⟩
abbrev main_call0_v33 : Ref sig .tc := ⟨.hbm, 61, rfl⟩
abbrev main_call0_v34 : Ref sig .tc := ⟨.hbm, 62, rfl⟩
abbrev main_call0_c_5 : Ref sig .tc := ⟨.hbm, 63, rfl⟩
abbrev main_call0_v35 : Ref sig .tc := ⟨.hbm, 64, rfl⟩
abbrev main_call0_v36 : Ref sig .tc := ⟨.hbm, 65, rfl⟩
abbrev main_call0_c_6 : Ref sig .tc := ⟨.hbm, 66, rfl⟩
abbrev main_call0_v37 : Ref sig .tc := ⟨.hbm, 67, rfl⟩
abbrev main_call0_v38 : Ref sig .tc := ⟨.hbm, 68, rfl⟩
abbrev main_call0_v39 : Ref sig .tc := ⟨.hbm, 69, rfl⟩
abbrev main_call0_c_7 : Ref sig .tc := ⟨.hbm, 70, rfl⟩
abbrev main_call0_call3_v0 : Ref sig .tc := ⟨.hbm, 71, rfl⟩
abbrev main_call0_call3_v1 : Ref sig .tc := ⟨.hbm, 72, rfl⟩
abbrev main_call0_call3_v2 : Ref sig .tc := ⟨.hbm, 73, rfl⟩
abbrev main_call0_call3_v3 : Ref sig .tc := ⟨.hbm, 74, rfl⟩
abbrev main_call0_call3_v4 : Ref sig .tc := ⟨.hbm, 75, rfl⟩
abbrev main_call0_call3_v5 : Ref sig .tc := ⟨.hbm, 76, rfl⟩
abbrev main_call0_call3_v6 : Ref sig .tc := ⟨.hbm, 77, rfl⟩
abbrev main_call0_call3_v7 : Ref sig .tc := ⟨.hbm, 78, rfl⟩
abbrev main_call0_call3_v8 : Ref sig .tc := ⟨.hbm, 79, rfl⟩
abbrev main_call0_call3_c : Ref sig .tc := ⟨.hbm, 80, rfl⟩
abbrev main_call0_call3_v9 : Ref sig .tc := ⟨.hbm, 81, rfl⟩
abbrev main_call0_call3_v10 : Ref sig .tc := ⟨.hbm, 82, rfl⟩
abbrev main_call0_call3_v11 : Ref sig .tc := ⟨.hbm, 83, rfl⟩
abbrev main_call0_call3_c_0 : Ref sig .tc := ⟨.hbm, 84, rfl⟩
abbrev main_call0_call3_v12 : Ref sig .tc := ⟨.hbm, 85, rfl⟩
abbrev main_call0_call3_v13 : Ref sig .tc := ⟨.hbm, 86, rfl⟩
abbrev main_call0_v40 : Ref sig .tc := ⟨.hbm, 87, rfl⟩
abbrev main_call0_v41 : Ref sig .tc := ⟨.hbm, 88, rfl⟩
abbrev main_call0_v42 : Ref sig .tc := ⟨.hbm, 89, rfl⟩
abbrev main_call0_v43 : Ref sig .tc := ⟨.hbm, 90, rfl⟩
abbrev main_call0_v44 : Ref sig .tc := ⟨.hbm, 91, rfl⟩
abbrev main_call0_v45 : Ref sig .tc := ⟨.hbm, 92, rfl⟩
abbrev main_call0_c_8 : Ref sig .tc := ⟨.hbm, 93, rfl⟩
abbrev main_call0_call4_v0 : Ref sig .tc := ⟨.hbm, 94, rfl⟩
abbrev main_call0_call4_v1 : Ref sig .tc := ⟨.hbm, 95, rfl⟩
abbrev main_call0_v46 : Ref sig .tc := ⟨.hbm, 96, rfl⟩
abbrev main_call0_c_9 : Ref sig .tc := ⟨.hbm, 97, rfl⟩
abbrev main_call0_v47 : Ref sig .tc := ⟨.hbm, 98, rfl⟩
abbrev main_call0_v48 : Ref sig .tc := ⟨.hbm, 99, rfl⟩
abbrev main_call0_c_10 : Ref sig .tc := ⟨.hbm, 100, rfl⟩
abbrev main_call0_v49 : Ref sig .tc := ⟨.hbm, 101, rfl⟩
abbrev main_call0_v50 : Ref sig .tc := ⟨.hbm, 102, rfl⟩
abbrev main_call0_v51 : Ref sig .tc := ⟨.hbm, 103, rfl⟩
abbrev main_call0_v52 : Ref sig .tc := ⟨.hbm, 104, rfl⟩
abbrev main_call0_v53 : Ref sig .tc := ⟨.hbm, 105, rfl⟩
abbrev main_call0_cst_11 : Ref sig .tc := ⟨.hbm, 106, rfl⟩
abbrev main_call0_call5_v0 : Ref sig .tc := ⟨.hbm, 107, rfl⟩
abbrev main_call0_v54 : Ref sig .tc := ⟨.hbm, 108, rfl⟩
abbrev main_call0_v55 : Ref sig .tc := ⟨.hbm, 109, rfl⟩
abbrev main_v0 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x1 : S_.BroadcastsInDim S512x1 (![] : Fin 0 → Fin S512x1.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S131328_S512x512x1_S512x512_n_0_n_n_0_2_1_wf : GatherDims.WF S131328 S512x512x1 S512x512 [] [0] [] [0] [] 2 ![1]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)

variable [Facts₀]

def gather_S131328_S512x512x1_S512x512_n_0_n_n_0_2_1 : GatherDims S131328 S512x512x1 S512x512 where
  offsetDims := []
  collapsedSliceDims := [0]
  operandBatchingDims := []
  startIndicesBatchingDims := []
  startIndexMap := [0]
  indexVectorDim := 2
  sliceSizes := ![1]
  wf := gather_S131328_S512x512x1_S512x512_n_0_n_n_0_2_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_call0_v27) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v55) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131328 : Shape := ⟨1, ![131328]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩

abbrev nBuf : Space → Nat
  | .hbm => 109
  | .vmem => 0
  | .smem => 0
  | _ => 0

abbrev bufTy : (tb : Table) → Fin (tcTables nBuf tb) → BufTy
  | .hbm, ⟨0, _⟩ => ⟨S131328, .f32⟩
  | .hbm, ⟨1, _⟩ => ⟨S131328, .f32⟩
  | .hbm, ⟨2, _⟩ => ⟨S512, .i32⟩
  | .hbm, ⟨3, _⟩ => ⟨S512x1, .i32⟩
  | .hbm, ⟨4, _⟩ => ⟨S512, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S_, .i32⟩
  | .hbm, ⟨18, _⟩ => ⟨S512x1, .i32⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S_, .i32⟩
  | .hbm, ⟨31, _⟩ => ⟨S512x1, .i32⟩
  | .hbm, ⟨32, _⟩ => ⟨S512x1, .i32⟩
  | .hbm, ⟨33, _⟩ => ⟨S512x1, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S512x512, .i32⟩
  | .hbm, ⟨50, _⟩ => ⟨S512x512x1, .i32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512, .i32⟩
  | .hbm, ⟨56, _⟩ => ⟨S512x1, .i32⟩
  | .hbm, ⟨57, _⟩ => ⟨S512, .i32⟩
  | .hbm, ⟨58, _⟩ => ⟨S1x512, .i32⟩
  | .hbm, ⟨59, _⟩ => ⟨S512x512, .i32⟩
  | .hbm, ⟨60, _⟩ => ⟨S512x512, .i32⟩
  | .hbm, ⟨61, _⟩ => ⟨S512x512, .i1⟩
  | .hbm, ⟨62, _⟩ => ⟨S_, .i32⟩
  | .hbm, ⟨63, _⟩ => ⟨S512x1, .i32⟩
  | .hbm, ⟨64, _⟩ => ⟨S512x1, .i32⟩
  | .hbm, ⟨65, _⟩ => ⟨S_, .i32⟩
  | .hbm, ⟨66, _⟩ => ⟨S512x1, .i32⟩
  | .hbm, ⟨67, _⟩ => ⟨S512x1, .i32⟩
  | .hbm, ⟨68, _⟩ => ⟨S512x1, .i32⟩
  | .hbm, ⟨69, _⟩ => ⟨S_, .i32⟩
  | .hbm, ⟨70, _⟩ => ⟨S_, .i32⟩
  | .hbm, ⟨71, _⟩ => ⟨S512x1, .i32⟩
  | .hbm, ⟨72, _⟩ => ⟨S512x1, .i32⟩
  | .hbm, ⟨73, _⟩ => ⟨S512x1, .i32⟩
  | .hbm, ⟨74, _⟩ => ⟨S_, .i32⟩
  | .hbm, ⟨75, _⟩ => ⟨S512x1, .i32⟩
  | .hbm, ⟨76, _⟩ => ⟨S512x1, .i1⟩
  | .hbm, ⟨77, _⟩ => ⟨S512x1, .i32⟩
  | .hbm, ⟨78, _⟩ => ⟨S512x1, .i32⟩
  | .hbm, ⟨79, _⟩ => ⟨S_, .i32⟩
  | .hbm, ⟨80, _⟩ => ⟨S512x1, .i32⟩
  | .hbm, ⟨81, _⟩ => ⟨S512x1, .i1⟩
  | .hbm, ⟨82, _⟩ => ⟨S512x1, .i1⟩
  | .hbm, ⟨83, _⟩ => ⟨S_, .i32⟩
  | .hbm, ⟨84, _⟩ => ⟨S512x1, .i32⟩
  | .hbm, ⟨85, _⟩ => ⟨S512x1, .i32⟩
  | .hbm, ⟨86, _⟩ => ⟨S512x1, .i32⟩
  | .hbm, ⟨87, _⟩ => ⟨S512x512, .i32⟩
  | .hbm, ⟨88, _⟩ => ⟨S512x512, .i32⟩
  | .hbm, ⟨89, _⟩ => ⟨S512x512, .i32⟩
  | .hbm, ⟨90, _⟩ => ⟨S512x512, .i32⟩
  | .hbm, ⟨91, _⟩ => ⟨S512x512, .i32⟩
  | .hbm, ⟨92, _⟩ => ⟨S_, .i32⟩
  | .hbm, ⟨93, _⟩ => ⟨S_, .i32⟩
  | .hbm, ⟨94, _⟩ => ⟨S512x512, .i32⟩
  | .hbm, ⟨95, _⟩ => ⟨S512x512, .i32⟩
  | .hbm, ⟨96, _⟩ => ⟨S_, .i32⟩
  | .hbm, ⟨97, _⟩ => ⟨S512x512, .i32⟩
  | .hbm, ⟨98, _⟩ => ⟨S512x512, .i1⟩
  | .hbm, ⟨99, _⟩ => ⟨S_, .i32⟩
  | .hbm, ⟨100, _⟩ => ⟨S512x512, .i32⟩
  | .hbm, ⟨101, _⟩ => ⟨S512x512, .i32⟩
  | .hbm, ⟨102, _⟩ => ⟨S512x512, .i32⟩
  | .hbm, ⟨103, _⟩ => ⟨S512x512x1, .i32⟩
  | .hbm, ⟨104, _⟩ => ⟨S512x512, .f32⟩
  | .hbm, ⟨105, _⟩ => ⟨S_, .f32⟩
  | .hbm, ⟨106, _⟩ => ⟨S512x512, .f32⟩
  | .hbm, ⟨107, _⟩ => ⟨S512x512, .f32⟩
  | .hbm, ⟨108, _⟩ => ⟨S512x512, .f32⟩
  | _, _ => ⟨S131328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_call2_v0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_7 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_c_8 : Ref sig .tc := ⟨.hbm, 92, rfl⟩
abbrev main_call4_v0 : Ref sig .tc := ⟨.hbm, 93, rfl⟩
abbrev main_call4_v1 : Ref sig .tc := ⟨.hbm, 94, rfl⟩
abbrev main_v45 : Ref sig .tc := ⟨.hbm, 95, rfl⟩
abbrev main_c_9 : Ref sig .tc := ⟨.hbm, 96, rfl⟩
abbrev main_v46 : Ref sig .tc := ⟨.hbm, 97, rfl⟩
abbrev main_v47 : Ref sig .tc := ⟨.hbm, 98, rfl⟩
abbrev main_c_10 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_11 : Ref sig .tc := ⟨.hbm, 105, rfl⟩
abbrev main_call5_v0 : Ref sig .tc := ⟨.hbm, 106, rfl⟩
abbrev main_v53 : Ref sig .tc := ⟨.hbm, 107, rfl⟩
abbrev main_v54 : Ref sig .tc := ⟨.hbm, 108, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x1 : S_.BroadcastsInDim S512x1 (![] : Fin 0 → Fin S512x1.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  gather_S131328_S512x512x1_S512x512_n_0_n_n_0_2_1_wf : GatherDims.WF S131328 S512x512x1 S512x512 [] [0] [] [0] [] 2 ![1]
  dot_S512x512_S512x512_S512x512_1_0_0_1_n_n_wf : DotDims.WF S512x512 S512x512 S512x512 [1] [0] [0] [1] [] []

variable [Facts₀]

def gather_S131328_S512x512x1_S512x512_n_0_n_n_0_2_1 : GatherDims S131328 S512x512x1 S512x512 where
  offsetDims := []
  collapsedSliceDims := [0]
  operandBatchingDims := []
  startIndicesBatchingDims := []
  startIndexMap := [0]
  indexVectorDim := 2
  sliceSizes := ![1]
  wf := gather_S131328_S512x512x1_S512x512_n_0_n_n_0_2_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.PackedUpper.lean ====
/-
  Packed upper-triangular storage, and the product of two unpacked matrices.

  A 512 x 512 upper-triangular matrix is stored row after row without its zeros: row r holds the
  entries (r, r), (r, r+1), ..., (r, 511), so it starts at position r * (1024 - r + 1) / 2 of the packed
  vector of length 512 * 513 / 2 = 131328, and the entry (r, c) with c >= r sits at that start plus c - r.
  `unpack` reads the dense matrix back: on and above the diagonal the packed entry, below it zero.
  Everything about positions is integer arithmetic on 32-bit words, spelt as both programs spell it;
  nothing in this certificate ever needs to evaluate it, because both programs unpack in the same way.

  The one law of the certificate is `truncated_product_eq`: over the extended reals a change of float
  format is the identity, so a matrix unit's product of the two operands rounded to bf16, accumulated
  into zero, and the host's product of the operands themselves are the same sum over the contracted axis.
-/
import Idealize.ShloMosaic.PureOps.Ideal
import Idealize.ShloMosaic.PureOps.Ideal.Laws
import Idealize.ShloMosaic.Lib.Pipeline.Value

noncomputable section

namespace Cert.PackedUpper

open Idealize.ShloMosaic

/-! ## Shapes -/

/-- The packed vector. -/
abbrev SPacked : Shape := ⟨1, ![131328]⟩
/-- A vector with one entry per row (or per column). -/
abbrev SLine : Shape := ⟨1, ![512]⟩
/-- One entry per row, standing as a column. -/
abbrev SCol : Shape := ⟨2, ![512, 1]⟩
/-- One entry per column, lying as a row. -/
abbrev SRow : Shape := ⟨2, ![1, 512]⟩
/-- The dense matrix. -/
abbrev SMat : Shape := ⟨2, ![512, 512]⟩
/-- A single number. -/
abbrev SOne : Shape := ⟨0, ![]⟩
/-- The dense matrix of positions with a trailing unit axis, as a gather takes its indices. -/
abbrev SMat1 : Shape := ⟨3, ![512, 512, 1]⟩

theorem line_to_col : SLine.BroadcastsInDim SCol (![0] : Fin 1 → Fin SCol.rank) := by decide
theorem line_to_row : SLine.BroadcastsInDim SRow (![1] : Fin 1 → Fin SRow.rank) := by decide
theorem row_to_mat : SRow.BroadcastsInDim SMat (![0, 1] : Fin 2 → Fin SMat.rank) := by decide
theorem col_to_mat : SCol.BroadcastsInDim SMat (![0, 1] : Fin 2 → Fin SMat.rank) := by decide
theorem one_to_col : SOne.BroadcastsInDim SCol (![] : Fin 0 → Fin SCol.rank) := by decide
theorem one_to_mat : SOne.BroadcastsInDim SMat (![] : Fin 0 → Fin SMat.rank) := by decide
theorem mat_to_mat1 : SMat.BroadcastsInDim SMat1 (![0, 1] : Fin 2 → Fin SMat1.rank) := by decide

/-- One packed entry per matrix entry: the position matrix indexes axis 0 of the packed vector. -/
def takeEntries : GatherDims SPacked SMat1 SMat where
  offsetDims := []
  collapsedSliceDims := [0]
  operandBatchingDims := []
  startIndicesBatchingDims := []
  startIndexMap := [0]
  indexVectorDim := 2
  sliceSizes := ![1]

/-- Rows by columns: the second axis of the left factor against the first of the right. -/
def rowsByCols : DotDims SMat SMat SMat where
  lhsContracting := [1]
  rhsContracting := [0]
  lhsNonContracting := [0]
  rhsNonContracting := [1]
  lhsBatch := []
  rhsBatch := []

/-! ## Positions in the packed vector -/

/-- The row number r, one per row. -/
def rowNumber : IVec SCol 32 := broadcastInDim SCol ![0] line_to_col (iotaInDim SLine 32 0)
/-- The column number c, one per column. -/
def colNumber : IVec SRow 32 := broadcastInDim SRow ![1] line_to_row (iotaInDim SLine 32 0)

/-- c >= r: the entry is on or above the diagonal. -/
def onOrAbove : IVec SMat 1 :=
  cmpi .sge (broadcastInDim SMat ![0, 1] row_to_mat colNumber) (broadcastInDim SMat ![0, 1] col_to_mat rowNumber)

/-- r * (1024 - r + 1): twice the position at which row r starts. -/
def twiceRowStart : IVec SCol 32 :=
  muli rowNumber (addi (subi (broadcastInDim SCol ![] one_to_col (constantI SOne 32 1024#32)) rowNumber)
    (broadcastInDim SCol ![] one_to_col (constantI SOne 32 1#32)))

/-- Division rounding down, from the division that rounds toward zero: one less than the quotient when
    the signs differ and the division is not exact. -/
def floorDiv (n : IVec SCol 32) (d : IVec SOne 32) : IVec SCol 32 :=
  select
    (andi (cmpi .ne (signi n) (broadcastInDim SCol ![] one_to_col (signi d)))
      (cmpi .ne (Host.remsi n (broadcastInDim SCol ![] one_to_col d))
        (broadcastInDim SCol ![] one_to_col (constantI SOne 32 0#32))))
    (subi (Host.divsi n (broadcastInDim SCol ![] one_to_col d))
      (broadcastInDim SCol ![] one_to_col (constantI SOne 32 1#32)))
    (Host.divsi n (broadcastInDim SCol ![] one_to_col d))

/-- The position at which row r starts. -/
def rowStart : IVec SCol 32 := floorDiv twiceRowStart (constantI SOne 32 2#32)

/-- The position of entry (r, c): the row's start plus c - r. -/
def position : IVec SMat 32 :=
  addi (broadcastInDim SMat ![0, 1] col_to_mat rowStart)
    (subi (broadcastInDim SMat ![0, 1] row_to_mat colNumber) (broadcastInDim SMat ![0, 1] col_to_mat rowNumber))

/-- Below the diagonal the position is replaced by 0, so that every read is inside the packed vector. -/
def safePosition : IVec SMat 32 :=
  select onOrAbove position (broadcastInDim SMat ![] one_to_mat (constantI SOne 32 0#32))

/-- A negative position counted from the end, as an indexing expression normalises it. -/
def wrappedPosition : IVec SMat 32 :=
  select (cmpi .slt safePosition (broadcastInDim SMat ![] one_to_mat (constantI SOne 32 0#32)))
    (addi safePosition (broadcastInDim SMat ![] one_to_mat (constantI SOne 32 131328#32)))
    safePosition

/-! ## The dense matrix -/

variable {F : FTy → Type} [FloatOps F]

/-- The dense upper-triangular matrix of a packed vector: the packed entry on and above the diagonal,
    zero below it. -/
def unpack (p : FVec F SPacked .f32) : FVec F SMat .f32 :=
  select onOrAbove
    (Host.gather takeEntries p (broadcastInDim SMat1 ![0, 1] mat_to_mat1 wrappedPosition))
    (broadcastInDim SMat ![] one_to_mat (constant SOne .f32 0x00000000#32))

/-- The product of the dense matrices of two packed vectors, as the host computes it. -/
def unpackedProduct (a b : FVec F SPacked .f32) : FVec F SMat .f32 :=
  Host.dotGeneral rowsByCols none (unpack a) (unpack b)

/-! ## The law -/

/-- Over the extended reals rounding an operand to bf16 changes nothing, and a product accumulated into
    zero is the plain sum over the contracted axis: the matrix unit's product of the rounded operands is
    the host's product of the operands. -/
theorem truncated_product_eq (d : DotDims SMat SMat SMat) (h : SMat.ShapeCasts SMat) (hb : FTy.bf16.bits < FTy.f32.bits)
    (x y : FVec Ideal SMat .f32) :
    matmul (F := Ideal) d none (shapeCast SMat (truncf .bf16 x hb) h) (shapeCast SMat (truncf .bf16 y hb) h)
        (constant SMat .f32 0x00000000#32)
      = Host.dotGeneral (F := Ideal) d none x y := by
  funext j
  rw [shapeCast_self, shapeCast_self]
  simp only [matmul, Host.dotGeneral]
  rw [Ideal.matmul_constant_zero_apply, Ideal.dotGeneral_apply]
  rfl

end Cert.PackedUpper

end
-- ==== Proof.LibTypedRef.lean ====
/-
  Typed references to buffers: moving a value to the buffer's own type and back.
-/
import Idealize.ShloMosaic.Lib.StableHlo

namespace Cert.LibTypedRef

open Idealize.ShloMosaic Idealize.ShloMosaic.StableHlo

/-- A typed reference carries a proof that its buffer's type is the value's type, and moves contents
    between the two along it. Moving a value to the buffer's type and back gives the value: the two
    transports run along one equation in opposite directions. -/
theorem ofBuf_toBuf {sig : RefSig} {T : BufTy} {Val : EltTy → Type} (x : TRef sig T) (v : T.Contents Val) :
    x.ofBuf (x.toBuf v) = v := by
  rcases x with ⟨ref, ty_eq, h1, h2⟩
  cases ty_eq
  rfl

/-- The other way round: from the buffer's type to the value's and back. -/
theorem toBuf_ofBuf {sig : RefSig} {T : BufTy} {Val : EltTy → Type} (x : TRef sig T) (v : x.ref.ty.Contents Val) :
    x.toBuf (x.ofBuf v) = v := by
  rcases x with ⟨ref, ty_eq, h1, h2⟩
  cases ty_eq
  rfl

end Cert.LibTypedRef
-- ==== Proof.KernelOperands.lean ====
/-
  The two operands of the kernel's product, as the kernel finds them.

  Before the kernel starts, the surrounding program unpacks each packed argument into its dense
  upper-triangular matrix and rounds the matrix to bf16. Read back from the program's operations one by
  one, the left operand is the rounded `unpack` of the first argument and the right operand the rounded
  `unpack` of the second. Each operation's result is carried to its buffer's type and back on the way to
  the next operation; those pairs of transports cancel, and what is left is the operations' own term.
-/
import proofs.«150946_j5231270166622_2_alg».proof.Proof.Gen.KernelIdeal.Frame
import proofs.«150946_j5231270166622_2_alg».proof.Proof.PackedUpper
import proofs.«150946_j5231270166622_2_alg».proof.Proof.LibTypedRef
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 1000000 in
/-- The left operand: the first argument unpacked, then rounded to bf16. -/
theorem lhs_eq (c : Dev nD) :
    (V m c main_call0_v27 : FVec F S512x512 .bf16)
      = truncf .bf16 (Cert.PackedUpper.unpack (m ((c : Thread nD τ).loc main_arg0))) bitsLt_bf16_f32 := by
  dsimp only [Gen.V, Gen.hostOps0]
  after_results_simp
  simp only [Cert.LibTypedRef.ofBuf_toBuf]
  rfl

set_option maxHeartbeats 1000000 in
/-- The right operand: the second argument unpacked, then rounded to bf16. -/
theorem rhs_eq (c : Dev nD) :
    (V m c main_call0_v55 : FVec F S512x512 .bf16)
      = truncf .bf16 (Cert.PackedUpper.unpack (m ((c : Thread nD τ).loc main_arg1))) bitsLt_bf16_f32 := by
  dsimp only [Gen.V, Gen.hostOps0]
  after_results_simp
  simp only [Cert.LibTypedRef.ofBuf_toBuf]
  rfl

end Cert.KernelIdeal.Operands

end
-- ==== Proof.KernelValue.lean ====
/-
  What the kernel leaves in its result array.

  The kernel has one grid point. At it, each of its three windows is the whole 512 x 512 array, starting
  at row 0 and column 0: the two input blocks are the two operand matrices as the kernel finds them, and
  the output block it writes back is the whole result. Its body loads both operands, multiplies them on
  the matrix unit into a zero accumulator, and stores the product over the whole output block. So after
  the run the result array holds that product of the two operand arrays.
-/
import proofs.«150946_j5231270166622_2_alg».proof.Proof.Gen.KernelIdeal.Value

noncomputable section

namespace Cert.KernelIdeal.Whole

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The body's one store covers the whole output block, and its two loads read the whole input blocks:
    the output block after the body is the product of the two input blocks. -/
theorem body_result (x0 x1 : Vec F S512x512 .bf16) : out0_2 x0 x1 = k0_pay1 x0 x1 := by
  unfold out0_2
  rw [View.canon_unit_zero zero_offsets]
  simp only [View.ld_unit_zero (S := S512x512) zero_offsets]

/-- At the one grid point every window's block starts at row 0, column 0. -/
theorem block_starts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem starts0 (t : Fin cfg0.N) : (fun a => win0_0.index t a * main_call0_v27.ty.shape.size a) = fun _ => 0 := by
  obtain ⟨e0, e1, -⟩ := block_starts t
  funext a
  match a with
  | ⟨0, _⟩ => show win0_0.index t (0 : Fin 2) * 512 = 0; rw [e0]
  | ⟨1, _⟩ => show win0_0.index t (1 : Fin 2) * 512 = 0; rw [e1]

theorem starts1 (t : Fin cfg0.N) : (fun a => win0_1.index t a * main_call0_v55.ty.shape.size a) = fun _ => 0 := by
  obtain ⟨-, -, e0, e1, -⟩ := block_starts t
  funext a
  match a with
  | ⟨0, _⟩ => show win0_1.index t (0 : Fin 2) * 512 = 0; rw [e0]
  | ⟨1, _⟩ => show win0_1.index t (1 : Fin 2) * 512 = 0; rw [e1]

theorem starts2 (t : Fin cfg0.N) : (fun a => win0_2.index t a * main_v0.ty.shape.size a) = fun _ => 0 := by
  obtain ⟨-, -, -, -, e0, e1⟩ := block_starts t
  funext a
  match a with
  | ⟨0, _⟩ => show win0_2.index t (0 : Fin 2) * 512 = 0; rw [e0]
  | ⟨1, _⟩ => show win0_2.index t (1 : Fin 2) * 512 = 0; rw [e1]

/-- The left input block is the whole left operand array. -/
theorem lhs_block (c : Dev nD) (t : Fin cfg0.N) : (iblk m c 0 t : Vec F S512x512 .bf16) = V m c main_call0_v27 := by
  obtain rfl := fin_N0 t
  unfold iblk
  exact Memref.read_access_unit_zero (Elt F) main_call0_v27 (starts0 t0_0) (fun a => by rw [congrFun (starts0 t0_0) a]; simp) _

/-- The right input block is the whole right operand array. -/
theorem rhs_block (c : Dev nD) (t : Fin cfg0.N) : (iblk m c 1 t : Vec F S512x512 .bf16) = V m c main_call0_v55 := by
  obtain rfl := fin_N0 t
  unfold iblk
  exact Memref.read_access_unit_zero (Elt F) main_call0_v55 (starts1 t0_0) (fun a => by rw [congrFun (starts1 t0_0) a]; simp) _

/-- The product of the two operand arrays as the kernel finds them. -/
abbrev product (c : Dev nD) : Buf (Elt F) ((c : Thread nD τ).loc main_v0) :=
  k0_pay1 (V m c main_call0_v27) (V m c main_call0_v55)

/-- What the one grid point writes back is the whole of that product. -/
theorem flushed_eq (c : Dev nD) (t : Fin cfg0.N) :
    (dats m 0 c).flushed 2 t = ((cfg0.win 2).blk t).view.read (Elt F) (product m c) := by
  rw [Value.flushed2, body_result, lhs_block, rhs_block]
  obtain rfl := fin_N0 t
  exact (Memref.read_access_unit_zero (Elt F) main_v0 (starts2 t0_0) (fun a => by rw [congrFun (starts2 t0_0) a]; simp)
    (product m c)).symm

/-- The one grid point's output block covers the whole result array. -/
theorem covered (i : S512x512.Idx) :
    ∃ t : Fin cfg0.N, (cfg0.win 2).flush t = true ∧ i ∈ ((cfg0.win 2).blk t).view.set := by
  refine ⟨t0_0, flush0_2 t0_0, ?_⟩
  show i ∈ ((View.whole main_v0).slice (win0_2.rect t0_0)).set
  rw [View.set_slice_whole, Rect.mem_set_unit]
  obtain ⟨-, -, -, -, e0, e1⟩ := block_starts t0_0
  have h0 : (i 0).val < 512 := (i 0).isLt
  have h1 : (i 1).val < 512 := (i 1).isLt
  intro a
  match a with
  | ⟨0, _⟩ => show win0_2.index t0_0 (0 : Fin 2) * 512 ≤ (i 0).val ∧ (i 0).val < win0_2.index t0_0 (0 : Fin 2) * 512 + 512; omega
  | ⟨1, _⟩ => show win0_2.index t0_0 (1 : Fin 2) * 512 ≤ (i 1).val ∧ (i 1).val < win0_2.index t0_0 (1 : Fin 2) * 512 + 512; omega

/-- The result array after the run: the product of the two operand arrays. -/
theorem final (c : Dev nD) : (dats m 0 c).arrAt 2 cfg0.N = product m c :=
  (dats m 0 c).arrAt_eq_of_cover 2 (product m c) (fun t _ => flushed_eq m c t) covered

/-- The run: every execution ends with the result array at the product of the operand arrays the kernel
    found, and the two packed arguments as they were. -/
theorem run : θ_run defs (onTc (τ := τ) (main (F := F))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefOps.lean ====
/-
  The reference program as one straight line of operations.

  The reference unpacks each packed argument into its dense upper-triangular matrix and multiplies the
  two matrices. Its text calls small helper functions (a rounding-down division, three selections);
  written out at their calls, the whole program is one list of elementary operations run in order:
  fifty-three that build the first matrix, fifty-three that build the second in the same way, and the
  product.
-/
import proofs.«150946_j5231270166622_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem
open Idealize.ShloMosaic.StableHlo

variable {F : FTy → Type} [FloatOps F]

set_option maxHeartbeats 40000000 in
/-- The reference's operations, in order, each helper's operations in place of its call. -/
abbrev ops : List (HloOp τ sig (Elt F)) :=
  [ -- the first matrix: row numbers, column numbers, the mask "column >= row"
    nullary main_v0 (iotaInDim S512 32 0),
    unary main_v0 main_v1 (broadcastInDim S512x1 ![0] bcast_S512_S512x1_0),
    nullary main_v2 (iotaInDim S512 32 0),
    unary main_v2 main_v3 (broadcastInDim S1x512 ![1] bcast_S512_S1x512_1),
    unary main_v3 main_v4 (broadcastInDim S512x512 ![0, 1] bcast_S1x512_S512x512_0_1),
    unary main_v1 main_v5 (broadcastInDim S512x512 ![0, 1] bcast_S512x1_S512x512_0_1),
    binary main_v4 main_v5 main_v6 (cmpi .sge),
    -- twice the row's start: r * (1024 - r + 1)
    nullary main_c (constantI S_ 32 1024#32),
    unary main_c main_v7 (broadcastInDim S512x1 ![] bcast_S_S512x1),
    binary main_v7 main_v1 main_v8 subi,
    nullary main_c_0 (constantI S_ 32 1#32),
    unary main_c_0 main_v9 (broadcastInDim S512x1 ![] bcast_S_S512x1),
    binary main_v8 main_v9 main_v10 addi,
    binary main_v1 main_v10 main_v11 muli,
    nullary main_c_1 (constantI S_ 32 2#32),
    -- halved, rounding down
    TRef.unary (.of main_c_1) main_call0.v0 id,
    TRef.unary main_call0.v0 main_call0.v1 (broadcastInDim S512x1 ![] bcast_S_S512x1),
    TRef.binary (.of main_v11) main_call0.v1 main_call0.v2 Host.divsi,
    TRef.unary (.of main_v11) main_call0.v3 signi,
    TRef.unary main_call0.v0 main_call0.v4 signi,
    TRef.unary main_call0.v4 main_call0.v5 (broadcastInDim S512x1 ![] bcast_S_S512x1),
    TRef.binary main_call0.v3 main_call0.v5 main_call0.v6 (cmpi .ne),
    TRef.unary main_call0.v0 main_call0.v7 (broadcastInDim S512x1 ![] bcast_S_S512x1),
    TRef.binary (.of main_v11) main_call0.v7 main_call0.v8 Host.remsi,
    TRef.nullary main_call0.c (constantI S_ 32 0#32),
    TRef.unary main_call0.c main_call0.v9 (broadcastInDim S512x1 ![] bcast_S_S512x1),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S512x1 ![] bcast_S_S512x1),
    TRef.binary main_call0.v2 main_call0.v12 main_call0.v13 subi,
    TRef.ternary main_call0.v11 main_call0.v13 main_call0.v2 main_call0.call0.v0 select,
    -- the position of entry (r, c): the row's start plus c - r; 0 below the diagonal
    unary main_v3 main_v13 (broadcastInDim S512x512 ![0, 1] bcast_S1x512_S512x512_0_1),
    unary main_v1 main_v14 (broadcastInDim S512x512 ![0, 1] bcast_S512x1_S512x512_0_1),
    binary main_v13 main_v14 main_v15 subi,
    unary main_v12 main_v16 (broadcastInDim S512x512 ![0, 1] bcast_S512x1_S512x512_0_1),
    binary main_v16 main_v15 main_v17 addi,
    nullary main_c_2 (constantI S_ 32 0#32),
    TRef.unary (.of main_c_2) main_call1.v0 id,
    TRef.unary main_call1.v0 main_call1.v1 (broadcastInDim S512x512 ![] bcast_S_S512x512),
    TRef.ternary (.of main_v6) (.of main_v17) main_call1.v1 main_call1.v2 select,
    -- a negative position counted from the end
    nullary main_c_3 (constantI S_ 32 0#32),
    unary main_c_3 main_v19 (broadcastInDim S512x512 ![] bcast_S_S512x512),
    binary main_v18 main_v19 main_v20 (cmpi .slt),
    nullary main_c_4 (constantI S_ 32 131328#32),
    unary main_c_4 main_v21 (broadcastInDim S512x512 ![] bcast_S_S512x512),
    binary main_v18 main_v21 main_v22 addi,
    ternary main_v20 main_v22 main_v18 main_v23 select,
    -- the packed entries read at those positions, zero below the diagonal
    unary main_v23 main_v24 (broadcastInDim S512x512x1 ![0, 1] bcast_S512x512_S512x512x1_0_1),
    binary main_arg0 main_v24 main_v25 (fun x i => Host.gather gather_S131328_S512x512x1_S512x512_n_0_n_n_0_2_1 x i),
    nullary main_cst (constant S_ .f32 0x00000000#32),
    TRef.unary (.of main_cst : TRef sig ⟨S_, .f32⟩) main_call2.v0 (broadcastInDim S512x512 ![] bcast_S_S512x512),
    TRef.ternary (.of main_v6) (.of main_v25) main_call2.v0 main_call2.v1 select,
    -- the second matrix, in the same way
    nullary main_v27 (iotaInDim S512 32 0),
    unary main_v27 main_v28 (broadcastInDim S512x1 ![0] bcast_S512_S512x1_0),
    nullary main_v29 (iotaInDim S512 32 0),
    unary main_v29 main_v30 (broadcastInDim S1x512 ![1] bcast_S512_S1x512_1),
    unary main_v30 main_v31 (broadcastInDim S512x512 ![0, 1] bcast_S1x512_S512x512_0_1),
    unary main_v28 main_v32 (broadcastInDim S512x512 ![0, 1] bcast_S512x1_S512x512_0_1),
    binary main_v31 main_v32 main_v33 (cmpi .sge),
    nullary main_c_5 (constantI S_ 32 1024#32),
    unary main_c_5 main_v34 (broadcastInDim S512x1 ![] bcast_S_S512x1),
    binary main_v34 main_v28 main_v35 subi,
    nullary main_c_6 (constantI S_ 32 1#32),
    unary main_c_6 main_v36 (broadcastInDim S512x1 ![] bcast_S_S512x1),
    binary main_v35 main_v36 main_v37 addi,
    binary main_v28 main_v37 main_v38 muli,
    nullary main_c_7 (constantI S_ 32 2#32),
    TRef.unary (.of main_c_7) main_call3.v0 id,
    TRef.unary main_call3.v0 main_call3.v1 (broadcastInDim S512x1 ![] bcast_S_S512x1),
    TRef.binary (.of main_v38) main_call3.v1 main_call3.v2 Host.divsi,
    TRef.unary (.of main_v38) main_call3.v3 signi,
    TRef.unary main_call3.v0 main_call3.v4 signi,
    TRef.unary main_call3.v4 main_call3.v5 (broadcastInDim S512x1 ![] bcast_S_S512x1),
    TRef.binary main_call3.v3 main_call3.v5 main_call3.v6 (cmpi .ne),
    TRef.unary main_call3.v0 main_call3.v7 (broadcastInDim S512x1 ![] bcast_S_S512x1),
    TRef.binary (.of main_v38) main_call3.v7 main_call3.v8 Host.remsi,
    TRef.nullary main_call3.c (constantI S_ 32 0#32),
    TRef.unary main_call3.c main_call3.v9 (broadcastInDim S512x1 ![] bcast_S_S512x1),
    TRef.binary main_call3.v8 main_call3.v9 main_call3.v10 (cmpi .ne),
    TRef.binary main_call3.v6 main_call3.v10 main_call3.v11 andi,
    TRef.nullary main_call3.c_0 (constantI S_ 32 1#32),
    TRef.unary main_call3.c_0 main_call3.v12 (broadcastInDim S512x1 ![] bcast_S_S512x1),
    TRef.binary main_call3.v2 main_call3.v12 main_call3.v13 subi,
    TRef.ternary main_call3.v11 main_call3.v13 main_call3.v2 main_call3.call0.v0 select,
    unary main_v30 main_v40 (broadcastInDim S512x512 ![0, 1] bcast_S1x512_S512x512_0_1),
    unary main_v28 main_v41 (broadcastInDim S512x512 ![0, 1] bcast_S512x1_S512x512_0_1),
    binary main_v40 main_v41 main_v42 subi,
    unary main_v39 main_v43 (broadcastInDim S512x512 ![0, 1] bcast_S512x1_S512x512_0_1),
    binary main_v43 main_v42 main_v44 addi,
    nullary main_c_8 (constantI S_ 32 0#32),
    TRef.unary (.of main_c_8) main_call4.v0 id,
    TRef.unary main_call4.v0 main_call4.v1 (broadcastInDim S512x512 ![] bcast_S_S512x512),
    TRef.ternary (.of main_v33) (.of main_v44) main_call4.v1 main_call4.v2 select,
    nullary main_c_9 (constantI S_ 32 0#32),
    unary main_c_9 main_v46 (broadcastInDim S512x512 ![] bcast_S_S512x512),
    binary main_v45 main_v46 main_v47 (cmpi .slt),
    nullary main_c_10 (constantI S_ 32 131328#32),
    unary main_c_10 main_v48 (broadcastInDim S512x512 ![] bcast_S_S512x512),
    binary main_v45 main_v48 main_v49 addi,
    ternary main_v47 main_v49 main_v45 main_v50 select,
    unary main_v50 main_v51 (broadcastInDim S512x512x1 ![0, 1] bcast_S512x512_S512x512x1_0_1),
    binary main_arg1 main_v51 main_v52 (fun x i => Host.gather gather_S131328_S512x512x1_S512x512_n_0_n_n_0_2_1 x i),
    nullary main_cst_11 (constant S_ .f32 0x00000000#32),
    TRef.unary (.of main_cst_11 : TRef sig ⟨S_, .f32⟩) main_call5.v0 (broadcastInDim S512x512 ![] bcast_S_S512x512),
    TRef.ternary (.of main_v33) (.of main_v52) main_call5.v0 main_call5.v1 select,
    -- the product of the two matrices
    binary main_v26 main_v53 main_v54 (fun l r => Host.dotGeneral dot_S512x512_S512x512_S512x512_1_0_0_1_n_n none l r) ]

-- one hundred and seven binds re-associated: the rewrite under the chain recurses once per statement
set_option maxRecDepth 4096 in
set_option maxHeartbeats 4000000 in
/-- The reference program is that straight line: the helpers' definitions unfolded at their calls, both
    sides are one chain of steps once sequencing is re-associated. -/
theorem main_eq (c : Dev nD) : main (F := F) c = seq ops := by
  simp only [main, main_part0, main_part1, fn_floor_divide.body, fn_where.body, fn_where_0.body, fn_where_1.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
/-- Every operation touches TensorCore buffers only. -/
theorem ops_sub : (ops : List (HloOp τ sig (Elt F))).Forall fun op => op.bufs ⊆ tcRefs τ sig := by
  simp only [List.Forall]
  repeat' apply And.intro
  all_goals first | exact nullary_bufs_sub .. | exact unary_bufs_sub .. | exact binary_bufs_sub .. | exact ternary_bufs_sub ..

end Cert.ReferenceIdeal.Straight

end
-- ==== Proof.RefRun.lean ====
/-
  What the reference computes.

  Read back one operation at a time, the reference's result is the host's product of the dense matrices of
  its two packed arguments, and none of its operations writes an argument.
-/
import proofs.«150946_j5231270166622_2_alg».proof.Proof.RefOps
import proofs.«150946_j5231270166622_2_alg».proof.Proof.PackedUpper
import proofs.«150946_j5231270166622_2_alg».proof.Proof.LibTypedRef

noncomputable section

namespace Cert.ReferenceIdeal.Straight

open Cert.ReferenceIdeal Cert.ReferenceIdeal.Gen Idealize.ShloMosaic Idealize.ShloMosaic.TcCoe Idealize.SL.Sem
open Idealize.ShloMosaic.StableHlo

variable {F : FTy → Type} [FloatOps F]

set_option maxHeartbeats 4000000 in
/-- The result buffer after the operations: the product of the two unpacked arguments. -/
theorem result_eq (W : Valuation τ sig (Elt F)) :
    after ops W (Proc.devRef .tc main_v54)
      = Cert.PackedUpper.unpackedProduct (F := F) (W (Proc.devRef .tc main_arg0)) (W (Proc.devRef .tc main_arg1)) := by
  after_results_simp
  simp only [Cert.LibTypedRef.ofBuf_toBuf]
  rfl

set_option maxHeartbeats 4000000 in
/-- No operation writes the first argument. -/
theorem arg0_kept (W : Valuation τ sig (Elt F)) :
    after ops W (Proc.devRef .tc main_arg0) = W (Proc.devRef .tc main_arg0) :=
  after_of_forall_not_mem (b := Proc.devRef .tc main_arg0) _ _ (List.forall_iff_forall_mem.mp (by
    simp only [ops, List.Forall, nullary_writes, unary_writes, binary_writes, ternary_writes, Finset.mem_singleton]
    repeat' apply And.intro
    all_goals exact devRef_ne_of_ne (by decide)))

set_option maxHeartbeats 4000000 in
/-- No operation writes the second argument. -/
theorem arg1_kept (W : Valuation τ sig (Elt F)) :
    after ops W (Proc.devRef .tc main_arg1) = W (Proc.devRef .tc main_arg1) :=
  after_of_forall_not_mem (b := Proc.devRef .tc main_arg1) _ _ (List.forall_iff_forall_mem.mp (by
    simp only [ops, List.Forall, nullary_writes, unary_writes, binary_writes, ternary_writes, Finset.mem_singleton]
    repeat' apply And.intro
    all_goals exact devRef_ne_of_ne (by decide)))

/-- The run: every execution of the reference ends with its result at the product of the two unpacked
    arguments and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = Cert.PackedUpper.unpackedProduct (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v54).trans (result_eq _),
      (h c main_arg0).trans (arg0_kept _),
      (h c main_arg1).trans (arg1_kept _)⟩)
    (run_seq scopedRefs_eq scopedSems_eq defs main (fun _ => ops) main_eq (fun _ => ops_sub) m ρ)

end Cert.ReferenceIdeal.Straight

end
-- ==== Proof.lean ====
/-
  A product of two packed upper-triangular matrices, computed by a kernel and by a reference: the two
  results are equal over the extended reals.

  Both programs start from two packed vectors of length 131328 and unpack each into its dense 512 x 512
  upper-triangular matrix by the same integer arithmetic on positions (Proof/PackedUpper.lean: `unpack`).
  The kernel's program then rounds both matrices to bf16 and multiplies them on the matrix unit, in one
  grid point over whole-array blocks, into a zero accumulator; the reference multiplies the matrices
  themselves. Over the extended reals the rounding is the identity and both products are the same sum over
  the contracted axis (`truncated_product_eq`), so the two results are one function of the arguments,
  `unpackedProduct`. No property of the packed entries is used: the law holds at infinite entries too.

  The parts: Proof/KernelOperands.lean (the two operand arrays the kernel finds are the rounded unpacked
  arguments), Proof/KernelValue.lean (the kernel's result array is the product of the operand arrays it
  finds), Proof/RefOps.lean and Proof/RefRun.lean (the reference as one straight line of operations, and
  its result read back). The kernel's two frames are the generated ones; the reference's frame is its
  run with the result dropped; nothing was rewritten when the kernel was idealized.
-/
import proofs.«150946_j5231270166622_2_alg».proof.Defs
import proofs.«150946_j5231270166622_2_alg».proof.Proof.Gen.Kernel
import proofs.«150946_j5231270166622_2_alg».proof.Proof.Gen.Kernel.Frame
import proofs.«150946_j5231270166622_2_alg».proof.Proof.Gen.KernelIdeal
import proofs.«150946_j5231270166622_2_alg».proof.Proof.Gen.KernelIdeal.Frame
import proofs.«150946_j5231270166622_2_alg».proof.Proof.Gen.KernelIdeal.Value
import proofs.«150946_j5231270166622_2_alg».proof.Proof.Gen.ReferenceIdeal
import proofs.«150946_j5231270166622_2_alg».proof.Proof.Gen.Pre_finite_inputs
import proofs.«150946_j5231270166622_2_alg».proof.Proof.PackedUpper
import proofs.«150946_j5231270166622_2_alg».proof.Proof.KernelOperands
import proofs.«150946_j5231270166622_2_alg».proof.Proof.KernelValue
import proofs.«150946_j5231270166622_2_alg».proof.Proof.RefRun

noncomputable section

namespace Cert.Proof

open Idealize.ShloMosaic Idealize.ShloMosaic.TcCoe Idealize.SL.Sem

/-- The kernel's result: the matrix unit's product of the two rounded unpacked arguments is the host's
    product of the unpacked arguments. -/
theorem kernel_product (m : (ℓ : Loc Cert.KernelIdeal.nD Cert.KernelIdeal.τ Cert.KernelIdeal.sig) → Buf (Elt Ideal) ℓ)
    (c : Dev Cert.KernelIdeal.nD) :
    Cert.KernelIdeal.Whole.product (F := Ideal) m c
      = Cert.PackedUpper.unpackedProduct (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  (congr (congrArg Cert.KernelIdeal.Gen.k0_pay1 (Cert.KernelIdeal.Operands.lhs_eq m c))
      (Cert.KernelIdeal.Operands.rhs_eq m c)).trans
    (Cert.PackedUpper.truncated_product_eq _ _ _ _ _)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Straight.run (F := Ideal) m ρ)

/-- Idealizing the kernel rewrote nothing: there is nothing to preserve. -/
theorem preserves : Cert.preserves_Kernel_KernelIdeal := trivial

/-- Both programs end with `unpackedProduct` of the arguments, which agree. -/
theorem algebraic : Cert.algebraic_KernelIdeal_ReferenceIdeal := by
  intro m ρ m' ρ' _ hagree
  refine ⟨fun c => Cert.PackedUpper.unpackedProduct (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_product m c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Straight.run (F := Ideal) m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
